-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S512x256 : Shape := ⟨2, ![512, 256]⟩
abbrev S_ : Shape := ⟨0, ![]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .f32⟩
  | .hbm, ⟨1, _⟩ => ⟨S512x256, .bf16⟩
  | .local _ .vmem, ⟨0, _⟩ => ⟨S256x256, .f32⟩
  | .local _ .vmem, ⟨1, _⟩ => ⟨S512x256, .bf16⟩
  | _, _ => ⟨S256x256, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  { ofTc nBuf bufTy 1 4 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v17 : BitVec 32 := Scalar.muli v8 c256_i32
  let v21 : Index := Scalar.indexCast v17
  let c0_9 : Index := 0#32
  ![v21.toNat, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v17 : BitVec 32 := Scalar.muli v8 c256_i32
  let c0_i32_15 : BitVec 32 := 0#32
  ![v17.toNat, 0]
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v23 : BitVec 32 := Scalar.muli v2 c4_i32_11
  let v24 : BitVec 32 := Scalar.addi c0_i32_12 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v25 : BitVec 32 := Scalar.muli v5 c2_i32_13
  let v26 : BitVec 32 := Scalar.addi v24 v25
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_14 : BitVec 32 := 1#32
  let v27 : BitVec 32 := Scalar.muli v9 c1_i32_14
  let v28 : BitVec 32 := Scalar.addi v26 v27
  v28.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  hcc0_scratch0 : 2 + S_.numel ≤ 4
  hcc0_scratch1 : 3 + S_.numel ≤ 4
  k0_dev1_lt : ∀ d0 : Dev nD, (k0_dev1 d0) < nD
  k0_off1_inb : ∀ d0 : Dev nD, ∀ a, (k0_off1 d0) a + S256x256.size a ≤ S512x256.size a
  k0_off1_packedbf16 : ∀ d0 : Dev nD, (Rect.unit (s := S512x256) (k0_off1 d0) S256x256.size (k0_off1_inb d0)).PackedRows (EltTy.packing .bf16)
  k0_off2_inb : ∀ d0 : Dev nD, ∀ a, (k0_off2 d0) a + S256x256.size a ≤ S512x256.size a
  k0_off2_wordsbf16 : ∀ d0 : Dev nD, (Rect.unit (s := S512x256) (k0_off2 d0) S256x256.size (k0_off2_inb d0)).WholeWords (EltTy.packing .bf16)
  k0_dev2_lt : ∀ d0 : Dev nD, (k0_dev2 d0) < nD
  hstage0_0 : ∀ j, (stage0_0 j).IsWhole
  hstage0_1 : ∀ j, (stage0_1 j).IsWhole

variable [Facts₀]

abbrev cc0_scratch0 : DmaSems sig S_ := SemArray.consecutive 2 S_ hcc0_scratch0
abbrev cc0_scratch1 : DmaSems sig S_ := SemArray.consecutive 3 S_ hcc0_scratch1

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩

abbrev nBuf : Space → Nat
  | .hbm => 2
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .bf16⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Kernel.Gathered.lean ====
/-
  The gathered array. The mesh has axes x, y, z of two devices each, device `c` at z-coordinate `c % 2` with the
  devices `2 * (c / 2)` and `2 * (c / 2) + 1` sharing its x and y. Each device holds a block of 256 rows; the two
  devices of a z-pair exchange their blocks, so both end holding the 512 rows whose row block `z` is the block of the
  pair's device at z-coordinate `z`, converted element by element. This file states that array as one function of
  the devices' argument blocks, and the arithmetic of the pairing.
-/
import proofs.«900339_g7700000000000340_dist_ag_v7x_xyz2x2x2_z_m256_n256_bf16_1_alg».proof.Proof.Gen.Kernel.Skeleton
import Idealize.ShloMosaic.Lib.ValueIdx

noncomputable section

namespace Cert.Kernel.Gathered

open Cert.Kernel Cert.Kernel.Gen
open Idealize.ShloMosaic Idealize.ShloMosaic.TcCoe Idealize.ShloMosaic.ValueIdx

variable {F : FTy → Type} [FloatOps F]

/-- The device with `c`'s x and y coordinates whose z coordinate is `z % 2`. -/
def zDev (c : Dev nD) (z : Nat) : Dev nD := ⟨2 * (c.val / 2) + z % 2, by have h : c.val < 8 := c.isLt; show 2 * (c.val / 2) + z % 2 < 8; omega⟩

/-- The other device of `c`'s z-pair. -/
def peer (c : Dev nD) : Dev nD := zDev c (c.val + 1)

theorem peer_peer (c : Dev nD) : peer (peer c) = c := by revert c; decide
theorem peer_ne (c : Dev nD) : peer c ≠ c := by revert c; decide
theorem zDev_self (c : Dev nD) : zDev c c.val = c := by revert c; decide
theorem zDev_peer (c : Dev nD) (z : Nat) : zDev (peer c) z = zDev c z := by
  apply Fin.ext; show 2 * ((peer c).val / 2) + z % 2 = 2 * (c.val / 2) + z % 2
  have : (peer c).val / 2 = c.val / 2 := by revert c; decide
  rw [this]
theorem peer_val (c : Dev nD) : (peer c).val = 2 * (c.val / 2) + (c.val + 1) % 2 := rfl
theorem peer_mod (c : Dev nD) : (peer c).val % 2 = (c.val + 1) % 2 := by revert c; decide

/-- Device `c`'s block of the argument array, as launched. -/
def xblk (m : (ℓ : Loc nD τ sig) → Buf (Elt F) ℓ) (c : Dev nD) : (main_arg0 : Ref sig .tc).ty.Contents (Elt F) :=
  m ((c : Thread nD τ).loc main_arg0)

/-- The gathered array of `c`'s z-pair: row `r` is row `r % 256` of the block of the pair's device at z-coordinate
    `r / 256`, each element converted as the kernel's store converts it. -/
def gathered (m : (ℓ : Loc nD τ sig) → Buf (Elt F) ℓ) (c : Dev nD) : (cc0_stg1_0 : Ref sig .tc).ty.Contents (Elt F) :=
  fun i => k0_pay1 (xblk m (zDev c ((i 0).val / 256)))
    (ix2 (⟨(i 0).val % 256, Nat.mod_lt _ (by decide)⟩ : Fin 256) (⟨(i 1).val, (i 1).isLt⟩ : Fin 256))

/-- Both devices of a z-pair gather the same array. -/
theorem gathered_peer (m : (ℓ : Loc nD τ sig) → Buf (Elt F) ℓ) (c : Dev nD) : gathered m (peer c) = gathered m c := by
  funext i; unfold gathered; rw [zDev_peer]

end Cert.Kernel.Gathered

end
-- ==== Proof.Kernel.Protocol.lean ====
/-
  The exchange of a z-pair, as a protocol of three semaphores per device. Device `c` and its pair mate `peer c`
  each convert their 256-row block into their own rows of their 512-row result buffer, tell the mate (one unit on the
  mate's barrier semaphore) that the kernel is entered, wait for the mate's unit, copy their own rows into the same rows
  of the mate's buffer, and wait until their copy has been read out (the send semaphore) and the mate's copy has
  landed (the receive semaphore). Written here: the row regions of the result buffer and their arithmetic, what
  each unit hands its receiver (the mate's rows of the mate's buffer with the barrier unit; the rows written, holding
  the gathered array, with the two copy semaphores), what each device owes at launch, and the levels that order the
  waits: a barrier wait below the receive credit still owed, nothing owed at the two copy waits.
-/
import proofs.«900339_g7700000000000340_dist_ag_v7x_xyz2x2x2_z_m256_n256_bf16_1_alg».proof.Proof.Kernel.Gathered
import proofs.«900339_g7700000000000340_dist_ag_v7x_xyz2x2x2_z_m256_n256_bf16_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Exchange

open Cert.Kernel Cert.Kernel.Gen Cert.Kernel.Gathered

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's staging cells beside the exchange's cells -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The pairing -/

/-- Both device chains of the kernel (the signal's, the copy's) name the pair mate. -/
theorem peer_closed (c : Dev nD) : (peer c).val = (4 * (c.val / 4) + 2 * ((c.val / 2) % 2) + 1) - (c.val % 2) := by revert c; decide
theorem dev1_eq (c : Dev nD) : (⟨k0_dev1 c, k0_dev1_lt c⟩ : Dev nD) = peer c := Fin.ext ((k0_dev1_eq c).trans (peer_closed c).symm)
theorem dev2_eq (c : Dev nD) : (⟨k0_dev2 c, k0_dev2_lt c⟩ : Dev nD) = peer c := Fin.ext ((k0_dev2_eq c).trans (peer_closed c).symm)

/-- The pairing as a permutation of the devices. -/
def swap : Dev nD ≃ Dev nD := ⟨peer, peer, peer_peer, peer_peer⟩

/-! ## The memrefs and cells -/

abbrev xM : Memref sig .tc .vmem S256x256 .f32 := Memref.whole cc0_stg0_0
abbrev oM : Memref sig .tc .vmem S512x256 .bf16 := Memref.whole cc0_stg1_0

/-- The rows of the result buffer that are device `d`'s block: 256 rows from row `256 * (d % 2)`. -/
abbrev rowsRect (d : Dev nD) : Rect S512x256 := Rect.unit (s := S512x256) (k0_off2 d) S256x256.size (k0_off2_inb d)
abbrev rowsM (d : Dev nD) : Memref sig .tc .vmem S256x256 .bf16 := oM.slice (rowsRect d) (fun _ => rfl)
/-- The store's rectangle: the same rows, through the store's own offsets. -/
abbrev storeRect (d : Dev nD) : Rect S512x256 := Rect.unit (s := S512x256) (k0_off1 d) S256x256.size (k0_off1_inb d)

abbrev barS : Sem sig := (SemArray.scalar (sig.barrier 0 rfl) : Sems sig S_).sem
abbrev sendS : DmaSems sig S_ := cc0_scratch0
abbrev recvS : DmaSems sig S_ := cc0_scratch1

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three of the exchange's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one copy of a 256-row block. -/
abbrev N : ℕ := (rowsM (0 : Dev nD)).view.dmaCredit
theorem N_pos : 0 < N := View.dmaCredit_pos _ (by decide)
theorem N_eq (d : Dev nD) : (rowsM d).view.dmaCredit = N := rfl

/-! ## The row regions -/

theorem off1_eq_off2 (d : Dev nD) : k0_off1 d = k0_off2 d := (k0_off1_eq d).trans (k0_off2_eq d).symm

theorem rect_congr {s : Shape} {o o' sz : Fin s.rank → Nat} (h : o = o') (inb : ∀ a, o a + sz a ≤ s.size a) (inb' : ∀ a, o' a + sz a ≤ s.size a) :
    Rect.unit (s := s) o sz inb = Rect.unit (s := s) o' sz inb' := by subst h; rfl

theorem storeRect_eq (d : Dev nD) : storeRect d = rowsRect d := rect_congr (off1_eq_off2 d) _ _

/-- The elements of device `d`'s rows. -/
theorem rows_set (d : Dev nD) : (rowsM d).view.set = (rowsRect d).set := View.set_slice_whole _ _

theorem mem_rows (d : Dev nD) (i : S512x256.Idx) :
    i ∈ (rowsRect d).set ↔ 256 * (d.val % 2) ≤ (i 0).val ∧ (i 0).val < 256 * (d.val % 2) + 256 := by
  rw [Rect.mem_set_unit, Fin.forall_fin_two, k0_off2_eq d]
  have h1 : (i 1).val < 256 := (i 1).isLt
  show (256 * (d.val % 2) ≤ (i 0).val ∧ (i 0).val < 256 * (d.val % 2) + 256) ∧ (0 ≤ (i 1).val ∧ (i 1).val < 0 + 256) ↔ _
  omega

/-- The two blocks' rows split the buffer: what is not device `c`'s rows is its mate's. -/
theorem rows_compl (c : Dev nD) : Finset.univ \ (rowsRect c).set = (rowsRect (peer c)).set := by
  ext i
  rw [Finset.mem_sdiff, mem_rows, mem_rows, peer_mod]
  have h0 : (i 0).val < 512 := (i 0).isLt
  have := Nat.mod_two_eq_zero_or_one c.val
  simp only [Finset.mem_univ, true_and]
  omega

/-! ## Contents -/

/-- Device `c`'s block as its input staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `d`'s rows of device `c`'s result buffer, held whole at contents `f`. -/
def rowsPts (c d : Dev nD) (f : Buf (Elt F) ((rowsM d).view.loc (c : Thread nD τ))) : sProp 𝕄 :=
  (rowsM d).view.loc (c : Thread nD τ) ↦[(rowsM d).view.set]{fullShare} f

instance rowsPts_storable (c d : Dev nD) (f) : BI.Storable (upEmb : UEmb _ 𝕄) (rowsPts (F := F) c d f) := by unfold rowsPts; infer_instance

/-- Reading a view's elements and writing them back through the same view leaves them. -/
theorem write_read_of_mem {κ : Kind} {sp : Space} {S : Shape} {e : EltTy} (v : View sig κ sp S e)
    (fd g : v.ty.Contents (Elt F)) {i : v.ty.Idx} (hi : i ∈ v.set) :
    v.write (Elt F) fd (v.read (Elt F) g) Finset.univ i = g i := by
  obtain ⟨y, rfl⟩ := View.exists_emb_of_mem_set v hi
  rw [View.write_emb_of_mem _ _ (Finset.mem_univ y), View.read_apply, cast_cast, cast_eq]

/-! ## The schedule -/

/-- What the mate's barrier unit hands `c`: `c`'s rows of the mate's buffer, and that the mate has reached round 0 of
    its receive cell: what the copy into it needs. -/
def barPay (c : Dev nD) : sProp 𝕄 := iprop((∃ f, rowsPts (peer c) c f) ∗ reached ER (recvCell (peer c)) 0)
/-- What the landing of the mate's copy hands `c`: the mate's rows of its own buffer, holding the gathered array. -/
def recvPay (c : Dev nD) : sProp 𝕄 := rowsPts c (peer c) (gathered m c)
/-- What the completed read-out of its own copy hands `c` back: its own rows, holding the gathered array. -/
def sendPay (c : Dev nD) : sProp 𝕄 := rowsPts c c (gathered m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round: each of the three cells has one duty, a barrier cell's of one unit, a copy cell's of the block's credit. -/
def xRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance xRd_payload_storable (g : GSem nD τ sig) (r : ℕ) (d : Unit) :
    BI.Storable (upEmb : UEmb _ 𝕄) ((xRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (xRd (F := F) m).duties (barCell c) 0 = {()} := by dsimp only [xRd]; exact if_pos ⟨rfl, .inl ⟨rfl, rfl⟩⟩
theorem duties_send : (xRd (F := F) m).duties (sendCell c) 0 = {()} := by dsimp only [xRd]; exact if_pos ⟨rfl, .inr ⟨rfl, .inl rfl⟩⟩
theorem duties_recv : (xRd (F := F) m).duties (recvCell c) 0 = {()} := by dsimp only [xRd]; exact if_pos ⟨rfl, .inr ⟨rfl, .inr rfl⟩⟩
theorem duties_later (g : GSem nD τ sig) : ∀ r, 1 ≤ r → (xRd (F := F) m).duties g r = ∅ :=
  fun r hr => by dsimp only [xRd]; rw [if_neg fun h => by omega]

theorem amount_bar (d : Unit) : (xRd (F := F) m).amount (barCell c) 0 d = 1 := by dsimp only [xRd]; exact if_pos rfl
theorem amount_send (d : Unit) : (xRd (F := F) m).amount (sendCell c) 0 d = N := by dsimp only [xRd]; exact if_neg send_ne_bar
theorem amount_recv (d : Unit) : (xRd (F := F) m).amount (recvCell c) 0 d = N := by dsimp only [xRd]; exact if_neg recv_ne_bar

theorem expect_bar : (xRd (F := F) m).expect (barCell c) 0 = 1 := by
  unfold Schedule.expect Schedule.amountOf; rw [duties_bar, Finset.sum_singleton, amount_bar]
theorem expect_send : (xRd (F := F) m).expect (sendCell c) 0 = N := by
  unfold Schedule.expect Schedule.amountOf; rw [duties_send, Finset.sum_singleton, amount_send]
theorem expect_recv : (xRd (F := F) m).expect (recvCell c) 0 = N := by
  unfold Schedule.expect Schedule.amountOf; rw [duties_recv, Finset.sum_singleton, amount_recv]

theorem payload_bar (d : Unit) : (xRd (F := F) m).payload (barCell c) 0 d = barPay c := by dsimp only [xRd]; rw [if_pos rfl]
theorem payload_send (d : Unit) : (xRd (F := F) m).payload (sendCell c) 0 d = sendPay m c := by
  dsimp only [xRd]; rw [if_neg send_ne_bar, if_neg send_ne_recv, if_pos rfl]
theorem payload_recv (d : Unit) : (xRd (F := F) m).payload (recvCell c) 0 d = recvPay m c := by
  dsimp only [xRd]; rw [if_neg recv_ne_bar, if_pos rfl]

theorem rest_bar : bigSep ((xRd (F := F) m).duties (barCell c) 0 \ ∅) (fun d => (xRd (F := F) m).payload (barCell c) 0 d) = barPay c := by
  rw [Finset.sdiff_empty, duties_bar, bigSep_singleton, payload_bar]
theorem rest_send : bigSep ((xRd (F := F) m).duties (sendCell c) 0 \ ∅) (fun d => (xRd (F := F) m).payload (sendCell c) 0 d) = sendPay m c := by
  rw [Finset.sdiff_empty, duties_send, bigSep_singleton, payload_send]
theorem rest_recv : bigSep ((xRd (F := F) m).duties (recvCell c) 0 \ ∅) (fun d => (xRd (F := F) m).payload (recvCell c) 0 d) = recvPay m c := by
  rw [Finset.sdiff_empty, duties_recv, bigSep_singleton, payload_recv]

end Sched

/-! ## What each device owes at launch; the levels -/

/-- Device `c` owes its mate's receive cell the block's credit and its mate's barrier cell one unit. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes its mate's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.Kernel.Exchange

end
-- ==== Proof.Kernel.Body.lean ====
/-
  One device's body of the exchange, proved once at a symbolic device `c`: from its ghost state at round 0 of its three
  cells, its launch credit and its two staging buffers, the body runs without fault to the result buffer holding the
  gathered array and its two copy semaphores back at zero. The result buffer is held as two row regions: the mate's rows
  leave with the barrier unit and come back, written by the mate's copy, with the receive semaphore; the own rows are
  stored into, lent to the copy engine as the copy's source, and come back with the send semaphore.
-/
import proofs.«900339_g7700000000000340_dist_ag_v7x_xyz2x2x2_z_m256_n256_bf16_1_alg».proof.Proof.Kernel.Protocol
import proofs.«900339_g7700000000000340_dist_ag_v7x_xyz2x2x2_z_m256_n256_bf16_1_alg».proof.Proof.Gen.Kernel.Skeleton

noncomputable section

namespace Cert.Kernel.Exchange

open Cert.Kernel Cert.Kernel.Gen Cert.Kernel.Gathered

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three, its
    mate's barrier cell (its signal) and its mate's receive cell (its copy). -/
def invs (K : Dev nD × Fin 3 → ℕ) (c : Dev nD) : sProp 𝕄 :=
  iprop(cellInv ER (xRd m) (K (c, 0)) (barCell c) ∗ cellInv ER (xRd m) (K (c, 1)) (sendCell c) ∗ cellInv ER (xRd m) (K (c, 2)) (recvCell c)
    ∗ cellInv ER (xRd m) (K (peer c, 0)) (barCell (peer c)) ∗ cellInv ER (xRd m) (K (peer c, 2)) (recvCell (peer c)))

instance invs_persistent (K : Dev nD × Fin 3 → ℕ) (c : Dev nD) : BI.Persistent (invs m K c) := by unfold invs; infer_instance

/-- The ghost state device `c` starts from: the invariants; its positions at round 0 of its three cells; the reached-marks
    of the cells it pays and of its own send and receive cells; the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens and the level facts. -/
def start (c : Dev nD) : sProp 𝕄 :=
  iprop((∃ K, ghost m K c) ∗ cred (tallyAt (barCell c) () 1) ∗ cred (tallyAt (recvCell c) () N) ∗ levAts L lv)

/-- After the point: the two own cells at zero, closed. -/
def Φ₁ (c : Dev nD) : sProp 𝕄 := iprop(semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gathered m c
  Φ t := match t with
    | ⟨0, _⟩ => start m c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The values the body moves -/

abbrev r0 : Rect S256x256 := Rect.unit (s := S256x256) ![0, 0] S256x256.size inb_S256x256_S256x256_0_0

theorem hz : (![0, 0] : Fin 2 → Nat) = fun _ => 0 := funext fun a => by fin_cases a <;> rfl
theorem read_x (f : (cc0_stg0_0 : Ref sig .tc).ty.Contents (Elt F)) : (xM : Memref sig .tc .vmem S256x256 .f32).view.readAt (Elt F) r0.toLoadRect f = f :=
  Memref.readAt_unit_zero (Elt F) cc0_stg0_0 hz _ f

/-- The staged block is the argument block. -/
theorem xstg_eq (c : Dev nD) : xstg m ρ c = xblk m c := by
  have hz0 : (fun a => (win0_0.index (0 : Fin 1)) a * main_arg0.ty.shape.size a) = fun _ => 0 :=
    funext fun a => by fin_cases a <;> decide
  exact Memref.read_access_unit_zero (Elt F) main_arg0 hz0 (fun a => by fin_cases a <;> decide) _

/-- The result buffer splits into the own rows and the mate's rows. -/
theorem split_out (c : Dev nD) (g : Buf (Elt F) ((c : Thread nD τ).loc cc0_stg1_0)) :
    (((c : Thread nD τ).loc cc0_stg1_0) ↦{fullShare} g : sProp 𝕄) ⊣⊢ iprop(rowsPts c c g ∗ rowsPts c (peer c) g) := by
  unfold rowsPts
  rw [rows_set, rows_set, ← rows_compl]
  exact pointsTo_split_subset (Finset.subset_univ _)

/-- What the store leaves in the own rows is the gathered array there: row `256 (c % 2) + r` holds the converted
    row `r` of the own block. -/
theorem stored_eq (c : Dev nD) (g : Buf (Elt F) ((c : Thread nD τ).loc cc0_stg1_0)) :
    ∀ i ∈ (rowsM c).view.set, ((oM : Memref sig .tc .vmem S512x256 .bf16).access (storeRect c)).write (Elt F) g (k0_pay1 (xstg m ρ c)) Finset.univ i = gathered m c i := by
  intro i hi
  have hi' : i ∈ ((oM : Memref sig .tc .vmem S512x256 .bf16).access (storeRect c)).set := by
    rw [rows_set, ← storeRect_eq] at hi
    exact (View.set_slice_whole cc0_stg1_0 (storeRect c)).symm ▸ hi
  obtain ⟨y, rfl⟩ := View.exists_emb_of_mem_set _ hi'
  rw [View.write_emb_of_mem _ _ (Finset.mem_univ y), cast_eq]
  have hy0 : (y 0).val < 256 := (y 0).isLt
  have e0 : ((((oM : Memref sig .tc .vmem S512x256 .bf16).access (storeRect c)).emb y) 0).val = 256 * (c.val % 2) + (y 0).val := by
    show ((storeRect c).emb y 0).val = _
    rw [Rect.emb_apply, Rect.off_unit, Rect.stride_unit, Nat.one_mul, k0_off1_eq]; rfl
  have e1 : ((((oM : Memref sig .tc .vmem S512x256 .bf16).access (storeRect c)).emb y) 1).val = (y 1).val := by
    show ((storeRect c).emb y 1).val = _
    rw [Rect.emb_apply, Rect.off_unit, Rect.stride_unit, Nat.one_mul, k0_off1_eq]; exact Nat.zero_add _
  have hzd : zDev c (((((oM : Memref sig .tc .vmem S512x256 .bf16).access (storeRect c)).emb y) 0).val / 256) = c := by
    rw [e0]; apply Fin.ext
    show 2 * (c.val / 2) + ((256 * (c.val % 2) + (y 0).val) / 256) % 2 = c.val
    omega
  unfold gathered
  rw [hzd, ← xstg_eq m ρ c]
  congr 1
  funext a
  match a with
  | ⟨0, _⟩ => exact Fin.ext (by show (y 0).val = _ % 256; rw [e0]; omega)
  | ⟨1, _⟩ => exact Fin.ext e1.symm

/-! ## The body -/

section Body

variable (K : Dev nD × Fin 3 → ℕ)

/-- The load of the own rows, before the store, reads elements of the own rows only. -/
theorem load_sub (c : Dev nD) :
    (oM : Memref sig .tc .vmem S512x256 .bf16).view.setOn (storeRect c).toLoadRect.set ⊆ (rowsM c).view.set := by
  rw [rows_set, ← storeRect_eq]
  show Finset.map (View.whole cc0_stg1_0).emb (storeRect c).set ⊆ (storeRect c).set
  rw [View.emb_whole, Finset.map_refl]

/-- The store writes elements of the own rows only. -/
theorem store_sub (c : Dev nD) :
    ((oM : Memref sig .tc .vmem S512x256 .bf16).access (storeRect c)).setOn Finset.univ ⊆ (rowsM c).view.set := by
  rw [View.setOn_univ, rows_set, ← storeRect_eq]
  exact (View.set_slice_whole cc0_stg1_0 (storeRect c)).subset

/-- The copy at the exchange's cells, addressed to `n = peer c` (substituted, not rewritten): the own rows, holding the
    gathered array, are lent as the source; the same rows of the mate's buffer, received with the barrier unit, are
    the destination, and land holding the gathered array. -/
theorem wp_send_x (c n : Dev nD) (hn : n = peer c) {hsc : (rowsM c : Memref sig (Dev.tc n : Thread nD τ).2.kind .vmem S256x256 .bf16).view.ref.isScScratch = false}
    {hsrc : (rowsM c : Memref sig .tc .vmem S256x256 .bf16).view.WordExact} {hdst : (rowsM c : Memref sig .tc .vmem S256x256 .bf16).view.WordExact}
    {hsem : DmaTarget.Typed .vmem (.dma recvS.sem) (.remote (Dev.tc n : Thread nD τ) (rowsM c : Memref sig .tc .vmem S256x256 .bf16) (.dma sendS.sem) hsc)}
    {α : Type} {Q : α → sProp 𝕄} {k : PUnit → Prog (TpuEff nD τ sig (Elt F) Λ₀ .tc) α}
    (fn : Buf (Elt F) ((rowsM c : Memref sig .tc .vmem S256x256 .bf16).view.loc (peer c : Thread nD τ))) (W : Waits sig Unit) :
    iprop(cellInv ER (xRd m) (K (c, 1)) (sendCell c) ∗ cellInv ER (xRd m) (K (peer c, 2)) (recvCell (peer c))
        ∗ rowsPts c c (gathered m c) ∗ rowsPts (peer c) c fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowsM c) (.remote (Dev.tc n : Thread nD τ) (rowsM c) (.dma sendS.sem) hsc) (.dma recvS.sem) hsrc hdst hsem) k) Q) := by
  subst hn
  unfold rowsPts
  exact Rounds.wp_send_pointsTo 𝒱₀ ER (xRd m) (c : Thread nD τ) none (c' := (peer c : Thread nD τ)) (src := rowsM c) (dst := rowsM c)
    (q := fullShare) (fs := gathered m c) (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N rfl (amount_send m c ()) (amount_recv m (peer c) ()) 0 (by rw [zero_add]) (W := W)
    (by rw [payload_send]; unfold sendPay rowsPts; exact BI.Entails.refl _)
    (by
      rw [payload_recv]; unfold recvPay rowsPts; rw [peer_peer, gathered_peer]
      exact Entails.of_eq (pointsTo_congr fun i hi => write_read_of_mem _ _ _ hi))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (gathered m c))

set_option maxHeartbeats 800000 in
/-- The body, symbolically executed from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, Prog.bind_assoc, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  -- the result buffer as its two row regions
  ihave Hsp := (split_out c g1).1 $$ Hout
  icases Hsp with ⟨Hown, Hoth⟩
  -- the signal to the mate's barrier cell: with it go the mate's rows of this buffer and that this device is at round 0
  -- of its receive cell
  unfold O₀
  iapply (Rounds.wp_signal 𝒱₀ ER (xRd m) (c : Thread nD τ) none (dst := (peer c : Thread nD τ)) (κ := K (peer c, 0))
      (d := ()) (by rw [duties_bar]; exact Finset.mem_singleton_self _) ((amount_bar m (peer c) ()).trans (by decide)) () (tallyAt (recvCell (peer c)) () N) rfl)
    $$ [HO HtBP Hoth]
  · isplitr; · iexact HIbarP
    isplitl [HO]; · iexact HO
    isplitl [HtBP]; · iexact HtBP
    isplitl [Hoth]
    · rw [payload_bar]; unfold barPay; rw [peer_peer]
      isplitl [Hoth]; · iexists g1; iexact Hoth
      iexact HrV
    · iexact HrBP
  iintro HO
  -- the load of the own block, the (unused) load of the own rows, the store of the converted block into the own rows
  iapply (wp_load 𝒱₀ (c : Thread nD τ) none Set.univ (m := xM) (Finset.subset_univ _)) $$ Hx; iintro Hx
  rw [read_x]
  unfold rowsPts
  iapply (wp_load 𝒱₀ (c : Thread nD τ) none Set.univ (m := oM) (load_sub c)) $$ Hown; iintro Hown
  iapply (wp_store 𝒱₀ (c : Thread nD τ) none Set.univ (m := oM) (r := storeRect c) (Mk := Finset.univ) (store_sub c)) $$ Hown; iintro Hown
  ihave Hown := (Entails.of_eq (pointsTo_congr (stored_eq m ρ c g1))) $$ Hown
  -- the wait on the own barrier cell, owing the mate's receive credit: the own rows of the mate's buffer come with it
  iapply (Rounds.wp_wait_rest_token 𝒱₀ ER (xRd m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, HlandP⟩, #HrVP'⟩
  -- the copy into the mate's buffer
  iapply (wp_send_x m K c _ (dev2_eq c) fn (insert (SemLoc.reg barS, ()) W)) $$ [Hown HlandP HO HtS HtVP]
  · isplitr; · iexact HIsnd
    isplitr; · iexact HIrcvP
    isplitl [Hown]; · unfold rowsPts; iexact Hown
    isplitl [HlandP]; · iexact HlandP
    isplitl [HO]; · iexact HO
    isplitl [HtS]; · iexact HtS
    isplitr; · iexact HrS
    isplitl [HtVP]; · iexact HtVP
    iexact HrVP
  iintro ⟨HcS, HO⟩
  -- the wait on the send cell: the own rows back
  iapply (Rounds.wp_wait_rest_token 𝒱₀ ER (xRd m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hown := (Entails.of_eq (rest_send m c)) $$ Hpay
  -- the wait on the receive cell: the mate's rows, written by the mate's copy
  iapply (Rounds.wp_wait_rest_token 𝒱₀ ER (xRd m) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hoth := (Entails.of_eq (rest_recv m c)) $$ Hpay
  unfold sendPay recvPay
  -- the two own cells close: their counters at zero are the device's again
  imod (Rounds.cell_close ER (xRd m) (Set.mem_univ (K (c, 1))) (fun h => h) (R := 0 + 1) (duties_later m (sendCell c))) $$ [HatS] with HzS
  · isplitr; · iexact HIsnd
    iexact HatS
  imod (Rounds.cell_close ER (xRd m) (Set.mem_univ (K (c, 2))) (fun h => h) (R := 0 + 1) (duties_later m (recvCell c))) $$ [HatV] with HzV
  · isplitr; · iexact HIrcv
    iexact HatV
  -- the two row regions are the buffer again, holding the gathered array
  ihave Hout := (split_out c (gathered m c)).2 $$ [Hown Hoth]
  · isplitl [Hown]; · iexact Hown
    iexact Hoth
  rw [wp_ret]; imodintro
  iapply Hk
  unfold bodyPost Φ₁ Dat.owesAt Pipeline.owesWithin
  rw [show (dats m ρ 0 c).owed t₀.succ = 0 from rfl]
  isplitl [HzS HzV]
  · isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(start m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1) (fun _ => bodyPost m ρ c)
  unfold bodyPre' start
  iintro ⟨⟨⟨%K, Hg⟩, Hrest⟩, Ho, Hx, Hout⟩
  iapply (sound_body m ρ K c fun _ => bodyPost m ρ c)
  unfold bodyPre
  isplitr []
  · isplitl [Hg Hrest]
    · isplitl [Hg]; · iexact Hg
      icases Hrest with ⟨H1, H2, H3⟩
      isplitl [H1]; · iexact H1
      isplitl [H2]; · iexact H2
      iexact H3
    isplitl [Ho]; · iexact Ho
    isplitl [Hx] <;> iassumption
  · iintro H; iexact H

end Body

end Cert.Kernel.Exchange

end
-- ==== Proof.Kernel.Launch.lean ====
/-
  The launch of the exchange on all eight devices. Every device's three cells are funded at round 0 under one update,
  the barrier cell with the runtime's unscoped semaphore and the two copy cells with the kernel's own scoped ones;
  the duty tokens are dealt across each z-pair (a barrier cell's and a receive cell's token go to the mate, who pays
  them); each device's launch credit is what its mate owes it: one barrier unit and one block's copy credit. From
  these and the per-device body, every fair execution of the program terminates with each device's result array
  holding the gathered array of its z-pair and its argument array as launched.
-/
import proofs.«900339_g7700000000000340_dist_ag_v7x_xyz2x2x2_z_m256_n256_bf16_1_alg».proof.Proof.Kernel.Body

noncomputable section

namespace Cert.Kernel.Exchange

open Cert.Kernel Cert.Kernel.Gen Cert.Kernel.Gathered

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- A device's own cells' duty tokens as minted: its barrier's, its send's and its receive's. -/
abbrev tokOf (cj : Dev nD × Fin 3) : GSem nD τ sig × ℕ × Unit := (kcell cj, 0, ())
theorem tokOf_injective : Function.Injective (tokOf : Dev nD × Fin 3 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (xRd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (xRd m) xCells xToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (xRd m) (kcell (c, k)) 0)
      ⊢ (|={Set.univ}=> bigSep Finset.univ fun k => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (xRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (xRd m) (K ck) (kcell ck) : sProp 𝕄)) ⊢ cellInv ER (xRd m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt across each pair: a barrier cell's and a receive cell's token go to the mate. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (xRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (xRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: a unit if `d` is `c`'s mate. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m c from rfl, scopedRest0_eq]
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨HzS, HzV⟩
  isplitr; · iempintro
  isplitl [HzS HzV]
  · isplitl [HzS] <;> iassumption
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of the program terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.Kernel.Exchange

end
-- ==== Proof.Kernel.Run.lean ====
/-
  The run, read as values: after every fair execution each device's result array holds the gathered array of its
  z-pair (the one write-back, at the kernel's single grid point, writes the whole result buffer, which holds it), and
  its argument array holds what it held at launch (an input window's array is never written).
-/
import proofs.«900339_g7700000000000340_dist_ag_v7x_xyz2x2x2_z_m256_n256_bf16_1_alg».proof.Proof.Kernel.Launch

noncomputable section

namespace Cert.Kernel.Exchange

open Cert.Kernel Cert.Kernel.Gen Cert.Kernel.Gathered

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

theorem flush_1 (t : Fin cfg0.N) : (cfg0.win (1 : Fin 2)).flush t = true := by rw [fin_N t]; rfl

/-- The one write-back writes the gathered array: the result window's one block, at block index 0, is the whole array. -/
theorem flushed_eq (c : Dev nD) (t : Fin cfg0.N) (hf : (cfg0.win 1).flush t = true) :
    (dats m ρ 0 c).flushed 1 t = ((cfg0.win 1).blk t).view.read (Elt F) (gathered m c) := by
  obtain rfl : t = t₀ := fin_N t
  show (cfg0.win 1).cut (grid0.coords t₀) ((dats m ρ 0 c).after 1 t₀) = _
  have hz' : (fun a => win0_1.index t₀ a * main_v1.ty.shape.size a) = fun _ => 0 := funext fun a => by fin_cases a <;> decide
  exact (Memref.read_access_unit_zero (Elt F) main_v1 hz' (fun a => by rw [congrFun hz' a]; simp) (gathered m c)).symm

/-- So the result array ends holding the gathered array. -/
theorem final_o (c : Dev nD) : finalA m ρ c (1 : Fin 2) = gathered m c :=
  (dats m ρ 0 c).arrAt_eq_of_cover 1 (gathered m c) (flushed_eq m ρ c) fun i =>
    ⟨t₀, flush_1 t₀, by
      show i ∈ ((View.whole main_v1).slice (win0_1.rect t₀)).set
      rw [View.set_slice_whole, Rect.mem_set_unit]
      intro a
      have h0 : (i 0 : Nat) < 512 := (i 0).isLt
      have h1 : (i 1 : Nat) < 256 := (i 1).isLt
      match a with
      | ⟨0, _⟩ => show win0_1.index t₀ 0 * win0_1.size 0 ≤ (i 0 : Nat) ∧ (i 0 : Nat) < win0_1.index t₀ 0 * win0_1.size 0 + win0_1.xsize (grid0.coords t₀) 0
                  rw [show win0_1.index t₀ 0 * win0_1.size 0 = 0 from by decide +kernel, show win0_1.xsize (grid0.coords t₀) 0 = 512 from by decide +kernel]; omega
      | ⟨1, _⟩ => show win0_1.index t₀ 1 * win0_1.size 1 ≤ (i 1 : Nat) ∧ (i 1 : Nat) < win0_1.index t₀ 1 * win0_1.size 1 + win0_1.xsize (grid0.coords t₀) 1
                  rw [show win0_1.index t₀ 1 * win0_1.size 1 = 0 from by decide +kernel, show win0_1.xsize (grid0.coords t₀) 1 = 256 from by decide +kernel]; omega⟩

/-- The argument array after the run holds what it held. -/
theorem final_x (c : Dev nD) : finalA m ρ c (0 : Fin 2) = m ((c : Thread nD τ).loc main_arg0) :=
  (dats (F := F) m ρ 0 c).arrAt_in (0 : Fin 2) rfl _

/-- The run, read: on every device the result array at the gathered array, the argument unchanged. -/
theorem run : θ_run defs (onTc (τ := τ) (main (F := F))) ⟨m, fun _ => 0, ρ⟩ fun r => ∀ c : Dev nD,
      r.2.mem ((c.tc : Thread nD τ).loc main_v1) = gathered m c
      ∧ r.2.mem ((c.tc : Thread nD τ).loc main_arg0) = m ((c.tc : Thread nD τ).loc main_arg0) :=
  (θ_run defs _ _).mono (fun _ h c => ⟨(h c (1 : Fin 2)).trans (final_o m ρ c), (h c (0 : Fin 2)).trans (final_x m ρ c)⟩)
    (run_main m ρ)

/-- The frame: the program runs to the end, faults nowhere, and the argument arrays end unchanged. -/
theorem frame : θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c).2) (run m ρ)

end Cert.Kernel.Exchange

end
-- ==== Proof.KernelIdeal.Gathered.lean ====
/-
  The gathered array. The mesh has axes x, y, z of two devices each, device `c` at z-coordinate `c % 2` with the
  devices `2 * (c / 2)` and `2 * (c / 2) + 1` sharing its x and y. Each device holds a block of 256 rows; the two
  devices of a z-pair exchange their blocks, so both end holding the 512 rows whose row block `z` is the block of the
  pair's device at z-coordinate `z`, converted element by element. This file states that array as one function of
  the devices' argument blocks, and the arithmetic of the pairing.
-/
import proofs.«900339_g7700000000000340_dist_ag_v7x_xyz2x2x2_z_m256_n256_bf16_1_alg».proof.Proof.Gen.KernelIdeal.Skeleton
import Idealize.ShloMosaic.Lib.ValueIdx

noncomputable section

namespace Cert.KernelIdeal.Gathered

open Cert.KernelIdeal Cert.KernelIdeal.Gen
open Idealize.ShloMosaic Idealize.ShloMosaic.TcCoe Idealize.ShloMosaic.ValueIdx

variable {F : FTy → Type} [FloatOps F]

/-- The device with `c`'s x and y coordinates whose z coordinate is `z % 2`. -/
def zDev (c : Dev nD) (z : Nat) : Dev nD := ⟨2 * (c.val / 2) + z % 2, by have h : c.val < 8 := c.isLt; show 2 * (c.val / 2) + z % 2 < 8; omega⟩

/-- The other device of `c`'s z-pair. -/
def peer (c : Dev nD) : Dev nD := zDev c (c.val + 1)

theorem peer_peer (c : Dev nD) : peer (peer c) = c := by revert c; decide
theorem peer_ne (c : Dev nD) : peer c ≠ c := by revert c; decide
theorem zDev_self (c : Dev nD) : zDev c c.val = c := by revert c; decide
theorem zDev_peer (c : Dev nD) (z : Nat) : zDev (peer c) z = zDev c z := by
  apply Fin.ext; show 2 * ((peer c).val / 2) + z % 2 = 2 * (c.val / 2) + z % 2
  have : (peer c).val / 2 = c.val / 2 := by revert c; decide
  rw [this]
theorem peer_val (c : Dev nD) : (peer c).val = 2 * (c.val / 2) + (c.val + 1) % 2 := rfl
theorem peer_mod (c : Dev nD) : (peer c).val % 2 = (c.val + 1) % 2 := by revert c; decide

/-- Device `c`'s block of the argument array, as launched. -/
def xblk (m : (ℓ : Loc nD τ sig) → Buf (Elt F) ℓ) (c : Dev nD) : (main_arg0 : Ref sig .tc).ty.Contents (Elt F) :=
  m ((c : Thread nD τ).loc main_arg0)

/-- The gathered array of `c`'s z-pair: row `r` is row `r % 256` of the block of the pair's device at z-coordinate
    `r / 256`, each element converted as the kernel's store converts it. -/
def gathered (m : (ℓ : Loc nD τ sig) → Buf (Elt F) ℓ) (c : Dev nD) : (cc0_stg1_0 : Ref sig .tc).ty.Contents (Elt F) :=
  fun i => k0_pay1 (xblk m (zDev c ((i 0).val / 256)))
    (ix2 (⟨(i 0).val % 256, Nat.mod_lt _ (by decide)⟩ : Fin 256) (⟨(i 1).val, (i 1).isLt⟩ : Fin 256))

/-- Both devices of a z-pair gather the same array. -/
theorem gathered_peer (m : (ℓ : Loc nD τ sig) → Buf (Elt F) ℓ) (c : Dev nD) : gathered m (peer c) = gathered m c := by
  funext i; unfold gathered; rw [zDev_peer]

end Cert.KernelIdeal.Gathered

end
-- ==== Proof.KernelIdeal.Protocol.lean ====
/-
  The exchange of a z-pair, as a protocol of three semaphores per device. Device `c` and its pair mate `peer c`
  each convert their 256-row block into their own rows of their 512-row result buffer, tell the mate (one unit on the
  mate's barrier semaphore) that the kernel is entered, wait for the mate's unit, copy their own rows into the same rows
  of the mate's buffer, and wait until their copy has been read out (the send semaphore) and the mate's copy has
  landed (the receive semaphore). Written here: the row regions of the result buffer and their arithmetic, what
  each unit hands its receiver (the mate's rows of the mate's buffer with the barrier unit; the rows written, holding
  the gathered array, with the two copy semaphores), what each device owes at launch, and the levels that order the
  waits: a barrier wait below the receive credit still owed, nothing owed at the two copy waits.
-/
import proofs.«900339_g7700000000000340_dist_ag_v7x_xyz2x2x2_z_m256_n256_bf16_1_alg».proof.Proof.KernelIdeal.Gathered
import proofs.«900339_g7700000000000340_dist_ag_v7x_xyz2x2x2_z_m256_n256_bf16_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Exchange

open Cert.KernelIdeal Cert.KernelIdeal.Gen Cert.KernelIdeal.Gathered

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's staging cells beside the exchange's cells -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The pairing -/

/-- Both device chains of the kernel (the signal's, the copy's) name the pair mate. -/
theorem peer_closed (c : Dev nD) : (peer c).val = (4 * (c.val / 4) + 2 * ((c.val / 2) % 2) + 1) - (c.val % 2) := by revert c; decide
theorem dev1_eq (c : Dev nD) : (⟨k0_dev1 c, k0_dev1_lt c⟩ : Dev nD) = peer c := Fin.ext ((k0_dev1_eq c).trans (peer_closed c).symm)
theorem dev2_eq (c : Dev nD) : (⟨k0_dev2 c, k0_dev2_lt c⟩ : Dev nD) = peer c := Fin.ext ((k0_dev2_eq c).trans (peer_closed c).symm)

/-- The pairing as a permutation of the devices. -/
def swap : Dev nD ≃ Dev nD := ⟨peer, peer, peer_peer, peer_peer⟩

/-! ## The memrefs and cells -/

abbrev xM : Memref sig .tc .vmem S256x256 .f32 := Memref.whole cc0_stg0_0
abbrev oM : Memref sig .tc .vmem S512x256 .bf16 := Memref.whole cc0_stg1_0

/-- The rows of the result buffer that are device `d`'s block: 256 rows from row `256 * (d % 2)`. -/
abbrev rowsRect (d : Dev nD) : Rect S512x256 := Rect.unit (s := S512x256) (k0_off2 d) S256x256.size (k0_off2_inb d)
abbrev rowsM (d : Dev nD) : Memref sig .tc .vmem S256x256 .bf16 := oM.slice (rowsRect d) (fun _ => rfl)
/-- The store's rectangle: the same rows, through the store's own offsets. -/
abbrev storeRect (d : Dev nD) : Rect S512x256 := Rect.unit (s := S512x256) (k0_off1 d) S256x256.size (k0_off1_inb d)

abbrev barS : Sem sig := (SemArray.scalar (sig.barrier 0 rfl) : Sems sig S_).sem
abbrev sendS : DmaSems sig S_ := cc0_scratch0
abbrev recvS : DmaSems sig S_ := cc0_scratch1

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three of the exchange's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one copy of a 256-row block. -/
abbrev N : ℕ := (rowsM (0 : Dev nD)).view.dmaCredit
theorem N_pos : 0 < N := View.dmaCredit_pos _ (by decide)
theorem N_eq (d : Dev nD) : (rowsM d).view.dmaCredit = N := rfl

/-! ## The row regions -/

theorem off1_eq_off2 (d : Dev nD) : k0_off1 d = k0_off2 d := (k0_off1_eq d).trans (k0_off2_eq d).symm

theorem rect_congr {s : Shape} {o o' sz : Fin s.rank → Nat} (h : o = o') (inb : ∀ a, o a + sz a ≤ s.size a) (inb' : ∀ a, o' a + sz a ≤ s.size a) :
    Rect.unit (s := s) o sz inb = Rect.unit (s := s) o' sz inb' := by subst h; rfl

theorem storeRect_eq (d : Dev nD) : storeRect d = rowsRect d := rect_congr (off1_eq_off2 d) _ _

/-- The elements of device `d`'s rows. -/
theorem rows_set (d : Dev nD) : (rowsM d).view.set = (rowsRect d).set := View.set_slice_whole _ _

theorem mem_rows (d : Dev nD) (i : S512x256.Idx) :
    i ∈ (rowsRect d).set ↔ 256 * (d.val % 2) ≤ (i 0).val ∧ (i 0).val < 256 * (d.val % 2) + 256 := by
  rw [Rect.mem_set_unit, Fin.forall_fin_two, k0_off2_eq d]
  have h1 : (i 1).val < 256 := (i 1).isLt
  show (256 * (d.val % 2) ≤ (i 0).val ∧ (i 0).val < 256 * (d.val % 2) + 256) ∧ (0 ≤ (i 1).val ∧ (i 1).val < 0 + 256) ↔ _
  omega

/-- The two blocks' rows split the buffer: what is not device `c`'s rows is its mate's. -/
theorem rows_compl (c : Dev nD) : Finset.univ \ (rowsRect c).set = (rowsRect (peer c)).set := by
  ext i
  rw [Finset.mem_sdiff, mem_rows, mem_rows, peer_mod]
  have h0 : (i 0).val < 512 := (i 0).isLt
  have := Nat.mod_two_eq_zero_or_one c.val
  simp only [Finset.mem_univ, true_and]
  omega

/-! ## Contents -/

/-- Device `c`'s block as its input staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `d`'s rows of device `c`'s result buffer, held whole at contents `f`. -/
def rowsPts (c d : Dev nD) (f : Buf (Elt F) ((rowsM d).view.loc (c : Thread nD τ))) : sProp 𝕄 :=
  (rowsM d).view.loc (c : Thread nD τ) ↦[(rowsM d).view.set]{fullShare} f

instance rowsPts_storable (c d : Dev nD) (f) : BI.Storable (upEmb : UEmb _ 𝕄) (rowsPts (F := F) c d f) := by unfold rowsPts; infer_instance

/-- Reading a view's elements and writing them back through the same view leaves them. -/
theorem write_read_of_mem {κ : Kind} {sp : Space} {S : Shape} {e : EltTy} (v : View sig κ sp S e)
    (fd g : v.ty.Contents (Elt F)) {i : v.ty.Idx} (hi : i ∈ v.set) :
    v.write (Elt F) fd (v.read (Elt F) g) Finset.univ i = g i := by
  obtain ⟨y, rfl⟩ := View.exists_emb_of_mem_set v hi
  rw [View.write_emb_of_mem _ _ (Finset.mem_univ y), View.read_apply, cast_cast, cast_eq]

/-! ## The schedule -/

/-- What the mate's barrier unit hands `c`: `c`'s rows of the mate's buffer, and that the mate has reached round 0 of
    its receive cell: what the copy into it needs. -/
def barPay (c : Dev nD) : sProp 𝕄 := iprop((∃ f, rowsPts (peer c) c f) ∗ reached ER (recvCell (peer c)) 0)
/-- What the landing of the mate's copy hands `c`: the mate's rows of its own buffer, holding the gathered array. -/
def recvPay (c : Dev nD) : sProp 𝕄 := rowsPts c (peer c) (gathered m c)
/-- What the completed read-out of its own copy hands `c` back: its own rows, holding the gathered array. -/
def sendPay (c : Dev nD) : sProp 𝕄 := rowsPts c c (gathered m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round: each of the three cells has one duty, a barrier cell's of one unit, a copy cell's of the block's credit. -/
def xRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance xRd_payload_storable (g : GSem nD τ sig) (r : ℕ) (d : Unit) :
    BI.Storable (upEmb : UEmb _ 𝕄) ((xRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (xRd (F := F) m).duties (barCell c) 0 = {()} := by dsimp only [xRd]; exact if_pos ⟨rfl, .inl ⟨rfl, rfl⟩⟩
theorem duties_send : (xRd (F := F) m).duties (sendCell c) 0 = {()} := by dsimp only [xRd]; exact if_pos ⟨rfl, .inr ⟨rfl, .inl rfl⟩⟩
theorem duties_recv : (xRd (F := F) m).duties (recvCell c) 0 = {()} := by dsimp only [xRd]; exact if_pos ⟨rfl, .inr ⟨rfl, .inr rfl⟩⟩
theorem duties_later (g : GSem nD τ sig) : ∀ r, 1 ≤ r → (xRd (F := F) m).duties g r = ∅ :=
  fun r hr => by dsimp only [xRd]; rw [if_neg fun h => by omega]

theorem amount_bar (d : Unit) : (xRd (F := F) m).amount (barCell c) 0 d = 1 := by dsimp only [xRd]; exact if_pos rfl
theorem amount_send (d : Unit) : (xRd (F := F) m).amount (sendCell c) 0 d = N := by dsimp only [xRd]; exact if_neg send_ne_bar
theorem amount_recv (d : Unit) : (xRd (F := F) m).amount (recvCell c) 0 d = N := by dsimp only [xRd]; exact if_neg recv_ne_bar

theorem expect_bar : (xRd (F := F) m).expect (barCell c) 0 = 1 := by
  unfold Schedule.expect Schedule.amountOf; rw [duties_bar, Finset.sum_singleton, amount_bar]
theorem expect_send : (xRd (F := F) m).expect (sendCell c) 0 = N := by
  unfold Schedule.expect Schedule.amountOf; rw [duties_send, Finset.sum_singleton, amount_send]
theorem expect_recv : (xRd (F := F) m).expect (recvCell c) 0 = N := by
  unfold Schedule.expect Schedule.amountOf; rw [duties_recv, Finset.sum_singleton, amount_recv]

theorem payload_bar (d : Unit) : (xRd (F := F) m).payload (barCell c) 0 d = barPay c := by dsimp only [xRd]; rw [if_pos rfl]
theorem payload_send (d : Unit) : (xRd (F := F) m).payload (sendCell c) 0 d = sendPay m c := by
  dsimp only [xRd]; rw [if_neg send_ne_bar, if_neg send_ne_recv, if_pos rfl]
theorem payload_recv (d : Unit) : (xRd (F := F) m).payload (recvCell c) 0 d = recvPay m c := by
  dsimp only [xRd]; rw [if_neg recv_ne_bar, if_pos rfl]

theorem rest_bar : bigSep ((xRd (F := F) m).duties (barCell c) 0 \ ∅) (fun d => (xRd (F := F) m).payload (barCell c) 0 d) = barPay c := by
  rw [Finset.sdiff_empty, duties_bar, bigSep_singleton, payload_bar]
theorem rest_send : bigSep ((xRd (F := F) m).duties (sendCell c) 0 \ ∅) (fun d => (xRd (F := F) m).payload (sendCell c) 0 d) = sendPay m c := by
  rw [Finset.sdiff_empty, duties_send, bigSep_singleton, payload_send]
theorem rest_recv : bigSep ((xRd (F := F) m).duties (recvCell c) 0 \ ∅) (fun d => (xRd (F := F) m).payload (recvCell c) 0 d) = recvPay m c := by
  rw [Finset.sdiff_empty, duties_recv, bigSep_singleton, payload_recv]

end Sched

/-! ## What each device owes at launch; the levels -/

/-- Device `c` owes its mate's receive cell the block's credit and its mate's barrier cell one unit. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes its mate's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelIdeal.Exchange

end
-- ==== Proof.KernelIdeal.Body.lean ====
/-
  One device's body of the exchange, proved once at a symbolic device `c`: from its ghost state at round 0 of its three
  cells, its launch credit and its two staging buffers, the body runs without fault to the result buffer holding the
  gathered array and its two copy semaphores back at zero. The result buffer is held as two row regions: the mate's rows
  leave with the barrier unit and come back, written by the mate's copy, with the receive semaphore; the own rows are
  stored into, lent to the copy engine as the copy's source, and come back with the send semaphore.
-/
import proofs.«900339_g7700000000000340_dist_ag_v7x_xyz2x2x2_z_m256_n256_bf16_1_alg».proof.Proof.KernelIdeal.Protocol
import proofs.«900339_g7700000000000340_dist_ag_v7x_xyz2x2x2_z_m256_n256_bf16_1_alg».proof.Proof.Gen.KernelIdeal.Skeleton

noncomputable section

namespace Cert.KernelIdeal.Exchange

open Cert.KernelIdeal Cert.KernelIdeal.Gen Cert.KernelIdeal.Gathered

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three, its
    mate's barrier cell (its signal) and its mate's receive cell (its copy). -/
def invs (K : Dev nD × Fin 3 → ℕ) (c : Dev nD) : sProp 𝕄 :=
  iprop(cellInv ER (xRd m) (K (c, 0)) (barCell c) ∗ cellInv ER (xRd m) (K (c, 1)) (sendCell c) ∗ cellInv ER (xRd m) (K (c, 2)) (recvCell c)
    ∗ cellInv ER (xRd m) (K (peer c, 0)) (barCell (peer c)) ∗ cellInv ER (xRd m) (K (peer c, 2)) (recvCell (peer c)))

instance invs_persistent (K : Dev nD × Fin 3 → ℕ) (c : Dev nD) : BI.Persistent (invs m K c) := by unfold invs; infer_instance

/-- The ghost state device `c` starts from: the invariants; its positions at round 0 of its three cells; the reached-marks
    of the cells it pays and of its own send and receive cells; the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens and the level facts. -/
def start (c : Dev nD) : sProp 𝕄 :=
  iprop((∃ K, ghost m K c) ∗ cred (tallyAt (barCell c) () 1) ∗ cred (tallyAt (recvCell c) () N) ∗ levAts L lv)

/-- After the point: the two own cells at zero, closed. -/
def Φ₁ (c : Dev nD) : sProp 𝕄 := iprop(semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gathered m c
  Φ t := match t with
    | ⟨0, _⟩ => start m c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The values the body moves -/

abbrev r0 : Rect S256x256 := Rect.unit (s := S256x256) ![0, 0] S256x256.size inb_S256x256_S256x256_0_0

theorem hz : (![0, 0] : Fin 2 → Nat) = fun _ => 0 := funext fun a => by fin_cases a <;> rfl
theorem read_x (f : (cc0_stg0_0 : Ref sig .tc).ty.Contents (Elt F)) : (xM : Memref sig .tc .vmem S256x256 .f32).view.readAt (Elt F) r0.toLoadRect f = f :=
  Memref.readAt_unit_zero (Elt F) cc0_stg0_0 hz _ f

/-- The staged block is the argument block. -/
theorem xstg_eq (c : Dev nD) : xstg m ρ c = xblk m c := by
  have hz0 : (fun a => (win0_0.index (0 : Fin 1)) a * main_arg0.ty.shape.size a) = fun _ => 0 :=
    funext fun a => by fin_cases a <;> decide
  exact Memref.read_access_unit_zero (Elt F) main_arg0 hz0 (fun a => by fin_cases a <;> decide) _

/-- The result buffer splits into the own rows and the mate's rows. -/
theorem split_out (c : Dev nD) (g : Buf (Elt F) ((c : Thread nD τ).loc cc0_stg1_0)) :
    (((c : Thread nD τ).loc cc0_stg1_0) ↦{fullShare} g : sProp 𝕄) ⊣⊢ iprop(rowsPts c c g ∗ rowsPts c (peer c) g) := by
  unfold rowsPts
  rw [rows_set, rows_set, ← rows_compl]
  exact pointsTo_split_subset (Finset.subset_univ _)

/-- What the store leaves in the own rows is the gathered array there: row `256 (c % 2) + r` holds the converted
    row `r` of the own block. -/
theorem stored_eq (c : Dev nD) (g : Buf (Elt F) ((c : Thread nD τ).loc cc0_stg1_0)) :
    ∀ i ∈ (rowsM c).view.set, ((oM : Memref sig .tc .vmem S512x256 .bf16).access (storeRect c)).write (Elt F) g (k0_pay1 (xstg m ρ c)) Finset.univ i = gathered m c i := by
  intro i hi
  have hi' : i ∈ ((oM : Memref sig .tc .vmem S512x256 .bf16).access (storeRect c)).set := by
    rw [rows_set, ← storeRect_eq] at hi
    exact (View.set_slice_whole cc0_stg1_0 (storeRect c)).symm ▸ hi
  obtain ⟨y, rfl⟩ := View.exists_emb_of_mem_set _ hi'
  rw [View.write_emb_of_mem _ _ (Finset.mem_univ y), cast_eq]
  have hy0 : (y 0).val < 256 := (y 0).isLt
  have e0 : ((((oM : Memref sig .tc .vmem S512x256 .bf16).access (storeRect c)).emb y) 0).val = 256 * (c.val % 2) + (y 0).val := by
    show ((storeRect c).emb y 0).val = _
    rw [Rect.emb_apply, Rect.off_unit, Rect.stride_unit, Nat.one_mul, k0_off1_eq]; rfl
  have e1 : ((((oM : Memref sig .tc .vmem S512x256 .bf16).access (storeRect c)).emb y) 1).val = (y 1).val := by
    show ((storeRect c).emb y 1).val = _
    rw [Rect.emb_apply, Rect.off_unit, Rect.stride_unit, Nat.one_mul, k0_off1_eq]; exact Nat.zero_add _
  have hzd : zDev c (((((oM : Memref sig .tc .vmem S512x256 .bf16).access (storeRect c)).emb y) 0).val / 256) = c := by
    rw [e0]; apply Fin.ext
    show 2 * (c.val / 2) + ((256 * (c.val % 2) + (y 0).val) / 256) % 2 = c.val
    omega
  unfold gathered
  rw [hzd, ← xstg_eq m ρ c]
  congr 1
  funext a
  match a with
  | ⟨0, _⟩ => exact Fin.ext (by show (y 0).val = _ % 256; rw [e0]; omega)
  | ⟨1, _⟩ => exact Fin.ext e1.symm

/-! ## The body -/

section Body

variable (K : Dev nD × Fin 3 → ℕ)

/-- The load of the own rows, before the store, reads elements of the own rows only. -/
theorem load_sub (c : Dev nD) :
    (oM : Memref sig .tc .vmem S512x256 .bf16).view.setOn (storeRect c).toLoadRect.set ⊆ (rowsM c).view.set := by
  rw [rows_set, ← storeRect_eq]
  show Finset.map (View.whole cc0_stg1_0).emb (storeRect c).set ⊆ (storeRect c).set
  rw [View.emb_whole, Finset.map_refl]

/-- The store writes elements of the own rows only. -/
theorem store_sub (c : Dev nD) :
    ((oM : Memref sig .tc .vmem S512x256 .bf16).access (storeRect c)).setOn Finset.univ ⊆ (rowsM c).view.set := by
  rw [View.setOn_univ, rows_set, ← storeRect_eq]
  exact (View.set_slice_whole cc0_stg1_0 (storeRect c)).subset

/-- The copy at the exchange's cells, addressed to `n = peer c` (substituted, not rewritten): the own rows, holding the
    gathered array, are lent as the source; the same rows of the mate's buffer, received with the barrier unit, are
    the destination, and land holding the gathered array. -/
theorem wp_send_x (c n : Dev nD) (hn : n = peer c) {hsc : (rowsM c : Memref sig (Dev.tc n : Thread nD τ).2.kind .vmem S256x256 .bf16).view.ref.isScScratch = false}
    {hsrc : (rowsM c : Memref sig .tc .vmem S256x256 .bf16).view.WordExact} {hdst : (rowsM c : Memref sig .tc .vmem S256x256 .bf16).view.WordExact}
    {hsem : DmaTarget.Typed .vmem (.dma recvS.sem) (.remote (Dev.tc n : Thread nD τ) (rowsM c : Memref sig .tc .vmem S256x256 .bf16) (.dma sendS.sem) hsc)}
    {α : Type} {Q : α → sProp 𝕄} {k : PUnit → Prog (TpuEff nD τ sig (Elt F) Λ₀ .tc) α}
    (fn : Buf (Elt F) ((rowsM c : Memref sig .tc .vmem S256x256 .bf16).view.loc (peer c : Thread nD τ))) (W : Waits sig Unit) :
    iprop(cellInv ER (xRd m) (K (c, 1)) (sendCell c) ∗ cellInv ER (xRd m) (K (peer c, 2)) (recvCell (peer c))
        ∗ rowsPts c c (gathered m c) ∗ rowsPts (peer c) c fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowsM c) (.remote (Dev.tc n : Thread nD τ) (rowsM c) (.dma sendS.sem) hsc) (.dma recvS.sem) hsrc hdst hsem) k) Q) := by
  subst hn
  unfold rowsPts
  exact Rounds.wp_send_pointsTo 𝒱₀ ER (xRd m) (c : Thread nD τ) none (c' := (peer c : Thread nD τ)) (src := rowsM c) (dst := rowsM c)
    (q := fullShare) (fs := gathered m c) (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N rfl (amount_send m c ()) (amount_recv m (peer c) ()) 0 (by rw [zero_add]) (W := W)
    (by rw [payload_send]; unfold sendPay rowsPts; exact BI.Entails.refl _)
    (by
      rw [payload_recv]; unfold recvPay rowsPts; rw [peer_peer, gathered_peer]
      exact Entails.of_eq (pointsTo_congr fun i hi => write_read_of_mem _ _ _ hi))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (gathered m c))

set_option maxHeartbeats 800000 in
/-- The body, symbolically executed from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, Prog.bind_assoc, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  -- the result buffer as its two row regions
  ihave Hsp := (split_out c g1).1 $$ Hout
  icases Hsp with ⟨Hown, Hoth⟩
  -- the signal to the mate's barrier cell: with it go the mate's rows of this buffer and that this device is at round 0
  -- of its receive cell
  unfold O₀
  iapply (Rounds.wp_signal 𝒱₀ ER (xRd m) (c : Thread nD τ) none (dst := (peer c : Thread nD τ)) (κ := K (peer c, 0))
      (d := ()) (by rw [duties_bar]; exact Finset.mem_singleton_self _) ((amount_bar m (peer c) ()).trans (by decide)) () (tallyAt (recvCell (peer c)) () N) rfl)
    $$ [HO HtBP Hoth]
  · isplitr; · iexact HIbarP
    isplitl [HO]; · iexact HO
    isplitl [HtBP]; · iexact HtBP
    isplitl [Hoth]
    · rw [payload_bar]; unfold barPay; rw [peer_peer]
      isplitl [Hoth]; · iexists g1; iexact Hoth
      iexact HrV
    · iexact HrBP
  iintro HO
  -- the load of the own block, the (unused) load of the own rows, the store of the converted block into the own rows
  iapply (wp_load 𝒱₀ (c : Thread nD τ) none Set.univ (m := xM) (Finset.subset_univ _)) $$ Hx; iintro Hx
  rw [read_x]
  unfold rowsPts
  iapply (wp_load 𝒱₀ (c : Thread nD τ) none Set.univ (m := oM) (load_sub c)) $$ Hown; iintro Hown
  iapply (wp_store 𝒱₀ (c : Thread nD τ) none Set.univ (m := oM) (r := storeRect c) (Mk := Finset.univ) (store_sub c)) $$ Hown; iintro Hown
  ihave Hown := (Entails.of_eq (pointsTo_congr (stored_eq m ρ c g1))) $$ Hown
  -- the wait on the own barrier cell, owing the mate's receive credit: the own rows of the mate's buffer come with it
  iapply (Rounds.wp_wait_rest_token 𝒱₀ ER (xRd m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, HlandP⟩, #HrVP'⟩
  -- the copy into the mate's buffer
  iapply (wp_send_x m K c _ (dev2_eq c) fn (insert (SemLoc.reg barS, ()) W)) $$ [Hown HlandP HO HtS HtVP]
  · isplitr; · iexact HIsnd
    isplitr; · iexact HIrcvP
    isplitl [Hown]; · unfold rowsPts; iexact Hown
    isplitl [HlandP]; · iexact HlandP
    isplitl [HO]; · iexact HO
    isplitl [HtS]; · iexact HtS
    isplitr; · iexact HrS
    isplitl [HtVP]; · iexact HtVP
    iexact HrVP
  iintro ⟨HcS, HO⟩
  -- the wait on the send cell: the own rows back
  iapply (Rounds.wp_wait_rest_token 𝒱₀ ER (xRd m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hown := (Entails.of_eq (rest_send m c)) $$ Hpay
  -- the wait on the receive cell: the mate's rows, written by the mate's copy
  iapply (Rounds.wp_wait_rest_token 𝒱₀ ER (xRd m) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hoth := (Entails.of_eq (rest_recv m c)) $$ Hpay
  unfold sendPay recvPay
  -- the two own cells close: their counters at zero are the device's again
  imod (Rounds.cell_close ER (xRd m) (Set.mem_univ (K (c, 1))) (fun h => h) (R := 0 + 1) (duties_later m (sendCell c))) $$ [HatS] with HzS
  · isplitr; · iexact HIsnd
    iexact HatS
  imod (Rounds.cell_close ER (xRd m) (Set.mem_univ (K (c, 2))) (fun h => h) (R := 0 + 1) (duties_later m (recvCell c))) $$ [HatV] with HzV
  · isplitr; · iexact HIrcv
    iexact HatV
  -- the two row regions are the buffer again, holding the gathered array
  ihave Hout := (split_out c (gathered m c)).2 $$ [Hown Hoth]
  · isplitl [Hown]; · iexact Hown
    iexact Hoth
  rw [wp_ret]; imodintro
  iapply Hk
  unfold bodyPost Φ₁ Dat.owesAt Pipeline.owesWithin
  rw [show (dats m ρ 0 c).owed t₀.succ = 0 from rfl]
  isplitl [HzS HzV]
  · isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(start m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1) (fun _ => bodyPost m ρ c)
  unfold bodyPre' start
  iintro ⟨⟨⟨%K, Hg⟩, Hrest⟩, Ho, Hx, Hout⟩
  iapply (sound_body m ρ K c fun _ => bodyPost m ρ c)
  unfold bodyPre
  isplitr []
  · isplitl [Hg Hrest]
    · isplitl [Hg]; · iexact Hg
      icases Hrest with ⟨H1, H2, H3⟩
      isplitl [H1]; · iexact H1
      isplitl [H2]; · iexact H2
      iexact H3
    isplitl [Ho]; · iexact Ho
    isplitl [Hx] <;> iassumption
  · iintro H; iexact H

end Body

end Cert.KernelIdeal.Exchange

end
-- ==== Proof.KernelIdeal.Launch.lean ====
/-
  The launch of the exchange on all eight devices. Every device's three cells are funded at round 0 under one update,
  the barrier cell with the runtime's unscoped semaphore and the two copy cells with the kernel's own scoped ones;
  the duty tokens are dealt across each z-pair (a barrier cell's and a receive cell's token go to the mate, who pays
  them); each device's launch credit is what its mate owes it: one barrier unit and one block's copy credit. From
  these and the per-device body, every fair execution of the program terminates with each device's result array
  holding the gathered array of its z-pair and its argument array as launched.
-/
import proofs.«900339_g7700000000000340_dist_ag_v7x_xyz2x2x2_z_m256_n256_bf16_1_alg».proof.Proof.KernelIdeal.Body

noncomputable section

namespace Cert.KernelIdeal.Exchange

open Cert.KernelIdeal Cert.KernelIdeal.Gen Cert.KernelIdeal.Gathered

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- A device's own cells' duty tokens as minted: its barrier's, its send's and its receive's. -/
abbrev tokOf (cj : Dev nD × Fin 3) : GSem nD τ sig × ℕ × Unit := (kcell cj, 0, ())
theorem tokOf_injective : Function.Injective (tokOf : Dev nD × Fin 3 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (xRd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (xRd m) xCells xToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (xRd m) (kcell (c, k)) 0)
      ⊢ (|={Set.univ}=> bigSep Finset.univ fun k => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (xRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (xRd m) (K ck) (kcell ck) : sProp 𝕄)) ⊢ cellInv ER (xRd m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt across each pair: a barrier cell's and a receive cell's token go to the mate. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (xRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (xRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: a unit if `d` is `c`'s mate. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m c from rfl, scopedRest0_eq]
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨HzS, HzV⟩
  isplitr; · iempintro
  isplitl [HzS HzV]
  · isplitl [HzS] <;> iassumption
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of the program terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.KernelIdeal.Exchange

end
-- ==== Proof.KernelIdeal.Run.lean ====
/-
  The run, read as values: after every fair execution each device's result array holds the gathered array of its
  z-pair (the one write-back, at the kernel's single grid point, writes the whole result buffer, which holds it), and
  its argument array holds what it held at launch (an input window's array is never written).
-/
import proofs.«900339_g7700000000000340_dist_ag_v7x_xyz2x2x2_z_m256_n256_bf16_1_alg».proof.Proof.KernelIdeal.Launch

noncomputable section

namespace Cert.KernelIdeal.Exchange

open Cert.KernelIdeal Cert.KernelIdeal.Gen Cert.KernelIdeal.Gathered

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

theorem flush_1 (t : Fin cfg0.N) : (cfg0.win (1 : Fin 2)).flush t = true := by rw [fin_N t]; rfl

/-- The one write-back writes the gathered array: the result window's one block, at block index 0, is the whole array. -/
theorem flushed_eq (c : Dev nD) (t : Fin cfg0.N) (hf : (cfg0.win 1).flush t = true) :
    (dats m ρ 0 c).flushed 1 t = ((cfg0.win 1).blk t).view.read (Elt F) (gathered m c) := by
  obtain rfl : t = t₀ := fin_N t
  show (cfg0.win 1).cut (grid0.coords t₀) ((dats m ρ 0 c).after 1 t₀) = _
  have hz' : (fun a => win0_1.index t₀ a * main_v1.ty.shape.size a) = fun _ => 0 := funext fun a => by fin_cases a <;> decide
  exact (Memref.read_access_unit_zero (Elt F) main_v1 hz' (fun a => by rw [congrFun hz' a]; simp) (gathered m c)).symm

/-- So the result array ends holding the gathered array. -/
theorem final_o (c : Dev nD) : finalA m ρ c (1 : Fin 2) = gathered m c :=
  (dats m ρ 0 c).arrAt_eq_of_cover 1 (gathered m c) (flushed_eq m ρ c) fun i =>
    ⟨t₀, flush_1 t₀, by
      show i ∈ ((View.whole main_v1).slice (win0_1.rect t₀)).set
      rw [View.set_slice_whole, Rect.mem_set_unit]
      intro a
      have h0 : (i 0 : Nat) < 512 := (i 0).isLt
      have h1 : (i 1 : Nat) < 256 := (i 1).isLt
      match a with
      | ⟨0, _⟩ => show win0_1.index t₀ 0 * win0_1.size 0 ≤ (i 0 : Nat) ∧ (i 0 : Nat) < win0_1.index t₀ 0 * win0_1.size 0 + win0_1.xsize (grid0.coords t₀) 0
                  rw [show win0_1.index t₀ 0 * win0_1.size 0 = 0 from by decide +kernel, show win0_1.xsize (grid0.coords t₀) 0 = 512 from by decide +kernel]; omega
      | ⟨1, _⟩ => show win0_1.index t₀ 1 * win0_1.size 1 ≤ (i 1 : Nat) ∧ (i 1 : Nat) < win0_1.index t₀ 1 * win0_1.size 1 + win0_1.xsize (grid0.coords t₀) 1
                  rw [show win0_1.index t₀ 1 * win0_1.size 1 = 0 from by decide +kernel, show win0_1.xsize (grid0.coords t₀) 1 = 256 from by decide +kernel]; omega⟩

/-- The argument array after the run holds what it held. -/
theorem final_x (c : Dev nD) : finalA m ρ c (0 : Fin 2) = m ((c : Thread nD τ).loc main_arg0) :=
  (dats (F := F) m ρ 0 c).arrAt_in (0 : Fin 2) rfl _

/-- The run, read: on every device the result array at the gathered array, the argument unchanged. -/
theorem run : θ_run defs (onTc (τ := τ) (main (F := F))) ⟨m, fun _ => 0, ρ⟩ fun r => ∀ c : Dev nD,
      r.2.mem ((c.tc : Thread nD τ).loc main_v1) = gathered m c
      ∧ r.2.mem ((c.tc : Thread nD τ).loc main_arg0) = m ((c.tc : Thread nD τ).loc main_arg0) :=
  (θ_run defs _ _).mono (fun _ h c => ⟨(h c (1 : Fin 2)).trans (final_o m ρ c), (h c (0 : Fin 2)).trans (final_x m ρ c)⟩)
    (run_main m ρ)

/-- The frame: the program runs to the end, faults nowhere, and the argument arrays end unchanged. -/
theorem frame : θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c).2) (run m ρ)

end Cert.KernelIdeal.Exchange

end
-- ==== Proof.Bridge.lean ====
/-
  The value equation of the gather, and the two claims that rest on it.

  The mesh has axes x, y, z of two devices each; device `c` holds block `c % 2` of the 512 rows of the whole
  argument array (256 rows each, all 256 columns). The kernel leaves on every device the array whose row block
  `z` is the block of the device with the same x and y at z-coordinate `z`, converted element by element; the
  one-device program converts the whole array. Row `r` of the whole array is row `r % 256` of block `r / 256`,
  because `(r / 256) * 256 + r % 256 = r`, so the two arrays agree at every index.
-/
import proofs.«900339_g7700000000000340_dist_ag_v7x_xyz2x2x2_z_m256_n256_bf16_1_alg».proof.Defs
import proofs.«900339_g7700000000000340_dist_ag_v7x_xyz2x2x2_z_m256_n256_bf16_1_alg».proof.Proof.KernelIdeal.Gathered
import proofs.«900339_g7700000000000340_dist_ag_v7x_xyz2x2x2_z_m256_n256_bf16_1_alg».proof.Proof.Gen.ReferenceIdeal.Run
import proofs.«900339_g7700000000000340_dist_ag_v7x_xyz2x2x2_z_m256_n256_bf16_1_alg».proof.Proof.Gen.ReferenceIdeal.Read
import proofs.«900339_g7700000000000340_dist_ag_v7x_xyz2x2x2_z_m256_n256_bf16_1_alg».proof.Proof.Gen.KernelIdeal
import proofs.«900339_g7700000000000340_dist_ag_v7x_xyz2x2x2_z_m256_n256_bf16_1_alg».proof.Proof.Gen.ReferenceIdeal
import proofs.«900339_g7700000000000340_dist_ag_v7x_xyz2x2x2_z_m256_n256_bf16_1_alg».proof.Proof.Gen.Pre_finite_inputs_Kernel
import proofs.«900339_g7700000000000340_dist_ag_v7x_xyz2x2x2_z_m256_n256_bf16_1_alg».proof.Proof.Gen.Pre_finite_inputs_ReferenceIdeal

noncomputable section

open Idealize.ShloMosaic Idealize.ShloMosaic.TcCoe Idealize.SL.Sem Idealize.ShloMosaic.ValueIdx

namespace Cert.Proof.Bridge

open Cert.KernelIdeal.Gathered

/-- The device of `c`'s z-pair at z-coordinate `z` holds row block `z` of the whole array. -/
theorem block_row (c : Dev Cert.KernelIdeal.nD) (z : Fin 2) :
    ((Layout.meshBlock [2, 2, 2] ![[2], []] (zDev c z.val)) 0).val = z.val := by
  revert c z; decide

/-- The columns are not cut: every device's block coordinate along them is 0. -/
theorem block_col (c : Dev Cert.KernelIdeal.nD) :
    ((Layout.meshBlock [2, 2, 2] ![[2], []] c) 1).val = 0 := rfl

/-- The gathered array of any device, from blocks of a whole array `X`, is `X` converted element by element. -/
theorem gathered_eq
    (m : (ℓ : Loc Cert.KernelIdeal.nD Cert.KernelIdeal.τ Cert.KernelIdeal.sig) → Buf (Elt Ideal) ℓ)
    (X : (⟨⟨2, ![512, 256]⟩, .f32⟩ : BufTy).Contents (Elt Ideal))
    (hagree : ∀ c : Dev Cert.KernelIdeal.nD,
      m ((c.tc : Thread Cert.KernelIdeal.nD Cert.KernelIdeal.τ).loc Cert.KernelIdeal.main_arg0)
        = Layout.blockN ⟨2, ![256, 256]⟩ ⟨2, ![512, 256]⟩ (Layout.meshBlock [2, 2, 2] ![[2], []] c) X)
    (c : Dev Cert.KernelIdeal.nD) :
    gathered (F := Ideal) m c = truncf (F := Ideal) (s := ⟨2, ![512, 256]⟩) (φ := .f32) .bf16 X Cert.ReferenceIdeal.Gen.bitsLt_bf16_f32 := by
  funext i
  have hi0 : (i 0).val < 512 := (i 0).isLt
  have hz : (i 0).val / 256 < 2 := by omega
  rw [truncf_apply]
  unfold gathered Cert.KernelIdeal.Gen.k0_pay1 xblk
  rw [truncf_apply, shapeCast_self, hagree, Layout.blockN_apply]
  refine congrArg X (funext fun b => Fin.ext ?_)
  rw [Layout.TilesN.idx_val]
  match b with
  | ⟨0, _⟩ =>
    have hb : ((Layout.meshBlock [2, 2, 2] ![[2], []] (zDev c ((i 0).val / 256))) 0).val = (i 0).val / 256 :=
      block_row c ⟨(i 0).val / 256, hz⟩
    show ((Layout.meshBlock [2, 2, 2] ![[2], []] (zDev c ((i 0).val / 256))) 0).val * 256 + (i 0).val % 256 = (i 0).val
    rw [hb]
    omega
  | ⟨1, _⟩ =>
    show ((Layout.meshBlock [2, 2, 2] ![[2], []] (zDev c ((i 0).val / 256))) 1).val * 256 + (i 1).val = (i 1).val
    rw [block_col]
    omega

/-- The one-device program runs and leaves its argument array unchanged: its run, with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- Given that the kernel runs and leaves on every device the gathered array of its z-pair (and its argument block
    unchanged), both programs end holding the whole argument array converted element by element: the value
    both results share is that conversion, which the gathered array equals by `gathered_eq`. -/
theorem algebraic_of_run
    (hrun : ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v1) = Cert.KernelIdeal.Gathered.gathered (F := Ideal) m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.algebraic_KernelIdeal_ReferenceIdeal := by
  intro m g m' g' _ hagree
  refine ⟨truncf (F := Ideal) (s := ⟨2, ![512, 256]⟩) (φ := .f32) .bf16 (m' (((0 : Dev Cert.ReferenceIdeal.nD).tc : Thread Cert.ReferenceIdeal.nD Cert.ReferenceIdeal.τ).loc Cert.ReferenceIdeal.main_arg0)) Cert.ReferenceIdeal.Gen.bitsLt_bf16_f32, ?_, ?_⟩
  · refine (θ_run Cert.KernelIdeal.defs _ _).mono (fun _ h c => ⟨(h c).1.trans ?_, (h c).2⟩) (hrun m g)
    exact gathered_eq m _ hagree c
  · exact (θ_run Cert.ReferenceIdeal.defs _ _).mono (fun _ h => ⟨(h 0).1, (h 0).2⟩)
      (Cert.ReferenceIdeal.Value.run (F := Ideal) m' g')

end Cert.Proof.Bridge

end
-- ==== Proof.lean ====
/-
  The certificate of the all-gather along z on the 2 x 2 x 2 mesh. Each device converts its 256-row block into its own
  rows of a 512-row result buffer and exchanges those rows with the other device of its z-pair; the one-device program
  converts the whole 512-row array. The three frames: the exchange's protocol (an entry handshake on the barrier
  semaphore, one copy with a send and a receive semaphore) terminates on all eight devices without fault and leaves
  the argument blocks unchanged, at the word-level instance and at the ideal one; the one-device program's run.
  The idealization rewrote nothing. At the ideal instance every device ends holding the gathered array of its z-pair,
  whose row block `z` is the converted block of the pair's device at z-coordinate `z`, and that is the converted whole
  array, because each device's block is its row block of the whole array.
-/
import proofs.«900339_g7700000000000340_dist_ag_v7x_xyz2x2x2_z_m256_n256_bf16_1_alg».proof.Defs
import proofs.«900339_g7700000000000340_dist_ag_v7x_xyz2x2x2_z_m256_n256_bf16_1_alg».proof.Proof.Gen.Kernel
import proofs.«900339_g7700000000000340_dist_ag_v7x_xyz2x2x2_z_m256_n256_bf16_1_alg».proof.Proof.Gen.KernelIdeal
import proofs.«900339_g7700000000000340_dist_ag_v7x_xyz2x2x2_z_m256_n256_bf16_1_alg».proof.Proof.Gen.ReferenceIdeal
import proofs.«900339_g7700000000000340_dist_ag_v7x_xyz2x2x2_z_m256_n256_bf16_1_alg».proof.Proof.Gen.Pre_finite_inputs_Kernel
import proofs.«900339_g7700000000000340_dist_ag_v7x_xyz2x2x2_z_m256_n256_bf16_1_alg».proof.Proof.Gen.Pre_finite_inputs_ReferenceIdeal
import proofs.«900339_g7700000000000340_dist_ag_v7x_xyz2x2x2_z_m256_n256_bf16_1_alg».proof.Proof.Kernel.Run
import proofs.«900339_g7700000000000340_dist_ag_v7x_xyz2x2x2_z_m256_n256_bf16_1_alg».proof.Proof.KernelIdeal.Run
import proofs.«900339_g7700000000000340_dist_ag_v7x_xyz2x2x2_z_m256_n256_bf16_1_alg».proof.Proof.Bridge
import Idealize.ShloMosaic.Adequacy
import Idealize.ShloMosaic.Init

noncomputable section

namespace Cert.Proof

open Idealize.ShloMosaic Idealize.SL.Sem

/-- The word-level program runs on all devices and leaves its argument blocks unchanged. -/
theorem frame_k : Cert.frame_Kernel := fun m ρ _ => Cert.Kernel.Exchange.frame (F := Bits) m ρ

/-- The idealized program runs on all devices and leaves its argument blocks unchanged. -/
theorem frame_ki : Cert.frame_KernelIdeal := fun m ρ _ => Cert.KernelIdeal.Exchange.frame (F := Ideal) m ρ

/-- Both idealized programs end holding the converted whole array. -/
theorem algebraic : Cert.algebraic_KernelIdeal_ReferenceIdeal :=
  Cert.Proof.Bridge.algebraic_of_run fun m g => Cert.KernelIdeal.Exchange.run (F := Ideal) m g

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.Proof.Bridge.frame_ri, trivial, algebraic⟩

end Cert.Proof

end
